-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S1600000x48 : Shape := ⟨2, ![1600000, 48]⟩
abbrev S1x16 : Shape := ⟨2, ![1, 16]⟩
abbrev S100000 : Shape := ⟨1, ![100000]⟩
abbrev S112x256 : Shape := ⟨2, ![112, 256]⟩
abbrev S256 : Shape := ⟨1, ![256]⟩
abbrev S256x64 : Shape := ⟨2, ![256, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000x48 : S_.BroadcastsInDim S1600000x48 (![] : Fin 0 → Fin S1600000x48.rank)
  reducesTo_S1600000x48_S_d0_1 : S1600000x48.ReducesTo [0, 1] S_
  bcast_S_S1x16 : S_.BroadcastsInDim S1x16 (![] : Fin 0 → Fin S1x16.rank)
  reducesTo_S1x16_S_d0_1 : S1x16.ReducesTo [0, 1] S_
  bcast_S_S112x256 : S_.BroadcastsInDim S112x256 (![] : Fin 0 → Fin S112x256.rank)
  reducesTo_S112x256_S_d0_1 : S112x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S256 .f32) (main_arg7 : FVec F S256x64 .f32) (main_arg8 : FVec F S64 .f32) (main_v13 : IVec S_ 1) (main_v16 : IVec S112x256 1) : IVec S_ 1 :=
  let main_c_5 : IVec S_ 1 := constantI S_ 1 1#1
  let main_v17 : IVec S_ 1 := (fun x v => Host.reduce IntOp.andi x v reducesTo_S112x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x64 .f32 := Host.absf main_arg7
  let main_cst_8 : FVec F S_ .f32 := constant S_ .f32 0x7F800000#32
  let main_v25 : FVec F S256x64 .f32 := broadcastInDim S256x64 ![] bcast_S_S256x64 main_cst_8
  let main_v26 : IVec S256x64 1 := cmpf .olt main_v24 main_v25
  let main_c_9 : IVec S_ 1 := constantI S_ 1 1#1
  let main_v27 : IVec S_ 1 := (fun x v => Host.reduce IntOp.andi x v reducesTo_S256x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x64 .f32) (main_arg1 : IVec S2x1600000 32) (main_arg2 : FVec F S1600000x48 .f32) (main_arg3 : FVec F S1x16 .f32) (main_arg4 : IVec S100000 32) (main_arg5 : FVec F S112x256 .f32) (main_arg6 : FVec F S256 .f32) (main_arg7 : FVec F S256x64 .f32) (main_arg8 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000x48 .f32 := Host.absf main_arg2
  let main_cst_0 : FVec F S_ .f32 := constant S_ .f32 0x7F800000#32
  let main_v5 : FVec F S1600000x48 .f32 := broadcastInDim S1600000x48 ![] bcast_S_S1600000x48 main_cst_0
  let main_v6 : IVec S1600000x48 1 := cmpf .olt main_v4 main_v5
  let main_c_1 : IVec S_ 1 := constantI S_ 1 1#1
  let main_v7 : IVec S_ 1 := (fun x v => Host.reduce IntOp.andi x v reducesTo_S1600000x48_S_d0_1 h_S_) main_v6 main_c_1
  let main_v8 : IVec S_ 1 := andi main_v3 main_v7
  let main_v9 : FVec F S1x16 .f32 := Host.absf main_arg3
  let main_cst_2 : FVec F S_ .f32 := constant S_ .f32 0x7F800000#32
  let main_v10 : FVec F S1x16 .f32 := broadcastInDim S1x16 ![] bcast_S_S1x16 main_cst_2
  let main_v11 : IVec S1x16 1 := cmpf .olt main_v9 main_v10
  let main_c_3 : IVec S_ 1 := constantI S_ 1 1#1
  let main_v12 : IVec S_ 1 := (fun x v => Host.reduce IntOp.andi x v reducesTo_S1x16_S_d0_1 h_S_) main_v11 main_c_3
  let main_v13 : IVec S_ 1 := andi main_v8 main_v12
  let main_v14 : FVec F S112x256 .f32 := Host.absf main_arg5
  let main_cst_4 : FVec F S_ .f32 := constant S_ .f32 0x7F800000#32
  let main_v15 : FVec F S112x256 .f32 := broadcastInDim S112x256 ![] bcast_S_S112x256 main_cst_4
  let main_v16 : IVec S112x256 1 := cmpf .olt main_v14 main_v15
  fn_part1 (F := F) main_arg6 main_arg7 main_arg8 main_v13 main_v16
-- ==== Kernel.lean ====
abbrev S100000x64 : Shape := ⟨2, ![100000, 64]⟩
abbrev S2x1600000 : Shape := ⟨2, ![2, 1600000]⟩
abbrev S1600000x48 : Shape := ⟨2, ![1600000, 48]⟩
abbrev S1x16 : Shape := ⟨2, ![1, 16]⟩
abbrev S100000 : Shape := ⟨1, ![100000]⟩
abbrev S112x256 : Shape := ⟨2, ![112, 256]⟩
abbrev S256 : Shape := ⟨1, ![256]⟩
abbrev S256x64 : Shape := ⟨2, ![256, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000x48 : Shape := ⟨2, ![100000, 48]⟩
abbrev S1600000x1 : Shape := ⟨2, ![1600000, 1]⟩
abbrev S100000x1 : Shape := ⟨2, ![100000, 1]⟩
abbrev S64x256 : Shape := ⟨2, ![64, 256]⟩
abbrev S48x256 : Shape := ⟨2, ![48, 256]⟩
abbrev S1x256 : Shape := ⟨2, ![1, 256]⟩
abbrev S1x64 : Shape := ⟨2, ![1, 64]⟩
abbrev S5000x64 : Shape := ⟨2, ![5000, 64]⟩
abbrev S5000x48 : Shape := ⟨2, ![5000, 48]⟩
abbrev S5000x256 : Shape := ⟨2, ![5000, 256]⟩

abbrev nBuf : Space → Nat
  | .hbm => 32
  | .vmem => 11
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000x48, .f32⟩
  | .hbm, ⟨3, _⟩ => ⟨S1x16, .f32⟩
  | .hbm, ⟨4, _⟩ => ⟨S100000, .i32⟩
  | .hbm, ⟨5, _⟩ => ⟨S112x256, .f32⟩
  | .hbm, ⟨6, _⟩ => ⟨S256, .f32⟩
  | .hbm, ⟨7, _⟩ => ⟨S256x64, .f32⟩
  | .hbm, ⟨8, _⟩ => ⟨S64, .f32⟩
  | .hbm, ⟨9, _⟩ => ⟨S1x1600000, .i32⟩
  | .hbm, ⟨10, _⟩ => ⟨S1600000, .i32⟩
  | .hbm, ⟨11, _⟩ => ⟨S_, .f32⟩
  | .hbm, ⟨12, _⟩ => ⟨S100000x48, .f32⟩
  | .hbm, ⟨13, _⟩ => ⟨S1600000x1, .i32⟩
  | .hbm, ⟨14, _⟩ => ⟨S100000x48, .f32⟩
  | .hbm, ⟨15, _⟩ => ⟨S_, .f32⟩
  | .hbm, ⟨16, _⟩ => ⟨S1600000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S100000x48, .f32⟩
  | .hbm, ⟨26, _⟩ => ⟨S100000x48, .f32⟩
  | .hbm, ⟨27, _⟩ => ⟨S64x256, .f32⟩
  | .hbm, ⟨28, _⟩ => ⟨S48x256, .f32⟩
  | .hbm, ⟨29, _⟩ => ⟨S1x256, .f32⟩
  | .hbm, ⟨30, _⟩ => ⟨S1x64, .f32⟩
  | .hbm, ⟨31, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x48, .f32⟩
  | .local _ .vmem, ⟨3, _⟩ => ⟨S5000x48, .f32⟩
  | .local _ .vmem, ⟨4, _⟩ => ⟨S64x256, .f32⟩
  | .local _ .vmem, ⟨5, _⟩ => ⟨S48x256, .f32⟩
  | .local _ .vmem, ⟨6, _⟩ => ⟨S1x256, .f32⟩
  | .local _ .vmem, ⟨7, _⟩ => ⟨S256x64, .f32⟩
  | .local _ .vmem, ⟨8, _⟩ => ⟨S1x64, .f32⟩
  | .local _ .vmem, ⟨9, _⟩ => ⟨S5000x64, .f32⟩
  | .local _ .vmem, ⟨10, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x48 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S48x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S2x1600000_S1x1600000_0_0 : S2x1600000.Slices ![0, 0] S1x1600000
  shapeCasts_S1x1600000_S1600000 : S1x1600000.ShapeCasts S1600000
  bcast_S_S100000x48 : S_.BroadcastsInDim S100000x48 (![] : Fin 0 → Fin S100000x48.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x48_0_1 : S100000x1.BroadcastsInDim S100000x48 (![0, 1] : Fin 2 → Fin S100000x48.rank)
  slices_S112x256_S64x256_0_0 : S112x256.Slices ![0, 0] S64x256
  slices_S112x256_S48x256_64_0 : S112x256.Slices ![64, 0] S48x256
  shapeCasts_S256_S1x256 : S256.ShapeCasts S1x256
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S5000x48_S5000x48_0_0 : ∀ a, (![0, 0] : Fin 2 → Nat) a + S5000x48.size a ≤ S5000x48.size a
  h_S5000x48 : 0 < S5000x48.numel
  shapeCasts_S5000x48_S5000x48 : S5000x48.ShapeCasts S5000x48
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S48x256_S48x256_0_0 : ∀ a, (![0, 0] : Fin 2 → Nat) a + S48x256.size a ≤ S48x256.size a
  h_S48x256 : 0 < S48x256.numel
  shapeCasts_S48x256_S48x256 : S48x256.ShapeCasts S48x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S256x64_S256x64_0_0 : ∀ a, (![0, 0] : Fin 2 → Nat) a + S256x64.size a ≤ S256x64.size a
  h_S256x64 : 0 < S256x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S100000x48_S1600000x1_S1600000x48_1_0_0_1_wf : ScatterDims.WF S100000x48 S1600000x1 S1600000x48 [1] [0] [0] 1
  scatter_S100000_S1600000x1_S1600000_n_0_0_1_wf : ScatterDims.WF S100000 S1600000x1 S1600000 [] [0] [0] 1
  dot_S5000x64_S64x256_S5000x256_1_0_0_1_n_n_wf : DotDims.WF S5000x64 S64x256 S5000x256 [1] [0] [0] [1] [] []
  dot_S5000x48_S48x256_S5000x256_1_0_0_1_n_n_wf : DotDims.WF S5000x48 S48x256 S5000x256 [1] [0] [0] [1] [] []
  dot_S5000x256_S256x64_S5000x64_1_0_0_1_n_n_wf : DotDims.WF S5000x256 S256x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x48.size a ≤ S100000x48.size a
  hwx0_1 : ∀ i : grid0.Coords, EltTy.bits .f32 = 32 ∨ (Rect.block (s := S100000x48) S5000x48.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x256.size a ≤ S64x256.size a
  hwx0_2 : ∀ i : grid0.Coords, EltTy.bits .f32 = 32 ∨ (Rect.block (s := S64x256) S64x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S48x256.size a ≤ S48x256.size a
  hwx0_3 : ∀ i : grid0.Coords, EltTy.bits .f32 = 32 ∨ (Rect.block (s := S48x256) S48x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x64.size a ≤ S256x64.size a
  hwx0_5 : ∀ i : grid0.Coords, EltTy.bits .f32 = 32 ∨ (Rect.block (s := S256x64) S256x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x64.size a ≤ S100000x64.size a
  hwx0_7 : ∀ i : grid0.Coords, EltTy.bits .f32 = 32 ∨ (Rect.block (s := S100000x64) S5000x64.size (cc0_transform_7 i) (hinb0_7 i)).WholeWords (EltTy.packing .f32)

variable [Facts₀]

def scatter_S100000x48_S1600000x1_S1600000x48_1_0_0_1 : ScatterDims S100000x48 S1600000x1 S1600000x48 where
  updateWindowDims := [1]
  insertedWindowDims := [0]
  scatterDimsToOperandDims := [0]
  indexVectorDim := 1
  wf := scatter_S100000x48_S1600000x1_S1600000x48_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x64_S64x256_S5000x256_1_0_0_1_n_n : DotDims S5000x64 S64x256 S5000x256 where
  lhsContracting := [1]
  rhsContracting := [0]
  lhsNonContracting := [0]
  rhsNonContracting := [1]
  lhsBatch := []
  rhsBatch := []
  wf := dot_S5000x64_S64x256_S5000x256_1_0_0_1_n_n_wf
def dot_S5000x48_S48x256_S5000x256_1_0_0_1_n_n : DotDims S5000x48 S48x256 S5000x256 where
  lhsContracting := [1]
  rhsContracting := [0]
  lhsNonContracting := [0]
  rhsNonContracting := [1]
  lhsBatch := []
  rhsBatch := []
  wf := dot_S5000x48_S48x256_S5000x256_1_0_0_1_n_n_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x48.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S64x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S48x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S256x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v17) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v18) S5000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S1600000x48 : Shape := ⟨2, ![1600000, 48]⟩
abbrev S1x16 : Shape := ⟨2, ![1, 16]⟩
abbrev S100000 : Shape := ⟨1, ![100000]⟩
abbrev S112x256 : Shape := ⟨2, ![112, 256]⟩
abbrev S256 : Shape := ⟨1, ![256]⟩
abbrev S256x64 : Shape := ⟨2, ![256, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000x48 : Shape := ⟨2, ![100000, 48]⟩
abbrev S1600000x1 : Shape := ⟨2, ![1600000, 1]⟩
abbrev S100000x1 : Shape := ⟨2, ![100000, 1]⟩
abbrev S100000x112 : Shape := ⟨2, ![100000, 112]⟩
abbrev S100000x256 : Shape := ⟨2, ![100000, 256]⟩
abbrev S1x256 : Shape := ⟨2, ![1, 256]⟩
abbrev S1x64 : Shape := ⟨2, ![1, 64]⟩

abbrev nBuf : Space → Nat
  | .hbm => 39
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000x48, .f32⟩
  | .hbm, ⟨3, _⟩ => ⟨S1x16, .f32⟩
  | .hbm, ⟨4, _⟩ => ⟨S100000, .i32⟩
  | .hbm, ⟨5, _⟩ => ⟨S112x256, .f32⟩
  | .hbm, ⟨6, _⟩ => ⟨S256, .f32⟩
  | .hbm, ⟨7, _⟩ => ⟨S256x64, .f32⟩
  | .hbm, ⟨8, _⟩ => ⟨S64, .f32⟩
  | .hbm, ⟨9, _⟩ => ⟨S1x1600000, .i32⟩
  | .hbm, ⟨10, _⟩ => ⟨S1600000, .i32⟩
  | .hbm, ⟨11, _⟩ => ⟨S_, .f32⟩
  | .hbm, ⟨12, _⟩ => ⟨S100000x48, .f32⟩
  | .hbm, ⟨13, _⟩ => ⟨S1600000x1, .i32⟩
  | .hbm, ⟨14, _⟩ => ⟨S100000x48, .f32⟩
  | .hbm, ⟨15, _⟩ => ⟨S_, .f32⟩
  | .hbm, ⟨16, _⟩ => ⟨S1600000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S100000x48, .f32⟩
  | .hbm, ⟨26, _⟩ => ⟨S100000x48, .f32⟩
  | .hbm, ⟨27, _⟩ => ⟨S100000x112, .f32⟩
  | .hbm, ⟨28, _⟩ => ⟨S100000x256, .f32⟩
  | .hbm, ⟨29, _⟩ => ⟨S1x256, .f32⟩
  | .hbm, ⟨30, _⟩ => ⟨S100000x256, .f32⟩
  | .hbm, ⟨31, _⟩ => ⟨S100000x256, .f32⟩
  | .hbm, ⟨32, _⟩ => ⟨S_, .f32⟩
  | .hbm, ⟨33, _⟩ => ⟨S100000x256, .f32⟩
  | .hbm, ⟨34, _⟩ => ⟨S100000x256, .f32⟩
  | .hbm, ⟨35, _⟩ => ⟨S100000x64, .f32⟩
  | .hbm, ⟨36, _⟩ => ⟨S1x64, .f32⟩
  | .hbm, ⟨37, _⟩ => ⟨S100000x64, .f32⟩
  | .hbm, ⟨38, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_call0_cst : Ref sig .tc := ⟨.hbm, 32, rfl⟩
abbrev main_call0_v0 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  bcast_S_S100000x48 : S_.BroadcastsInDim S100000x48 (![] : Fin 0 → Fin S100000x48.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x48_0_1 : S100000x1.BroadcastsInDim S100000x48 (![0, 1] : Fin 2 → Fin S100000x48.rank)
  concatenates_S100000x64_S100000x48_S100000x112_d1 : Shape.Concatenates [S100000x64, S100000x48] S100000x112 1
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000x48_S1600000x1_S1600000x48_1_0_0_1_wf : ScatterDims.WF S100000x48 S1600000x1 S1600000x48 [1] [0] [0] 1
  scatter_S100000_S1600000x1_S1600000_n_0_0_1_wf : ScatterDims.WF S100000 S1600000x1 S1600000 [] [0] [0] 1
  dot_S100000x112_S112x256_S100000x256_1_0_0_1_n_n_wf : DotDims.WF S100000x112 S112x256 S100000x256 [1] [0] [0] [1] [] []
  dot_S100000x256_S256x64_S100000x64_1_0_0_1_n_n_wf : DotDims.WF S100000x256 S256x64 S100000x64 [1] [0] [0] [1] [] []

variable [Facts₀]

def scatter_S100000x48_S1600000x1_S1600000x48_1_0_0_1 : ScatterDims S100000x48 S1600000x1 S1600000x48 where
  updateWindowDims := [1]
  insertedWindowDims := [0]
  scatterDimsToOperandDims := [0]
  indexVectorDim := 1
  wf := scatter_S100000x48_S1600000x1_S1600000x48_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x112_S112x256_S100000x256_1_0_0_1_n_n : DotDims S100000x112 S112x256 S100000x256 where
  lhsContracting := [1]
  rhsContracting := [0]
  lhsNonContracting := [0]
  rhsNonContracting := [1]
  lhsBatch := []
  rhsBatch := []
  wf := dot_S100000x112_S112x256_S100000x256_1_0_0_1_n_n_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf

class Facts : Prop extends Facts₀ where

variable [Facts]
-- ==== Proof.LibContract1.lean ====
/-
  A matrix product whose dimension numbers contract ONE axis, read at a result index at the ideal values, for any
  dimension record: the kernel's `tpu.matmul` into the zero accumulator and the host's `dot_general` are both the sum,
  over that axis's coordinate `k : Fin n`, of the operands' products, each operand read at an index the caller NAMES
  (`L k`, `R k`) and proves to be where the record sends the result index and `k`. The caller's two obligations are
  per-axis facts about `DotDims.lhsIdx` / `rhsIdx` (`DotDims.lhsIdx_val_of_single` on the contracted axis, two `dif`
  rewrites on a kept one); everything else — opening the product, re-indexing the contraction shape's one-axis index by
  `Fin n` — is done here once.
-/
import Idealize.ShloMosaic.PureOps.Ideal.Laws
import Idealize.ShloMosaic.Lib.ValueIdx

noncomputable section

namespace Cert.LibContract1

open Idealize.ShloMosaic Idealize.ShloMosaic.ValueIdx

/-- A `tpu.matmul` into the f32 zero splat, one contracted axis of extent `n`: at `j` it is `∑ k, lhs (L k) · rhs (R k)`. -/
theorem matmul_zero_single {sl sr so : Shape} {φ₁ φ₂ : FTy} (d : DotDims sl sr so) (n : ℕ) (hr : d.contr.rank = 1)
    (hs : d.contr.size ⟨0, by omega⟩ = n) (lhs : FVec Ideal sl φ₁) (rhs : FVec Ideal sr φ₂) (j : so.Idx)
    (L : Fin n → sl.Idx) (R : Fin n → sr.Idx)
    (hL : ∀ k, d.lhsIdx j ((contrEquiv1 d n hr hs).symm k) = L k)
    (hR : ∀ k, d.rhsIdx j ((contrEquiv1 d n hr hs).symm k) = R k) :
    matmul d none lhs rhs (constant (F := Ideal) so .f32 0x00000000#32) j = ∑ k : Fin n, lhs (L k) * rhs (R k) := by
  simp only [matmul]
  rw [Ideal.matmul_constant_zero_apply, ← Equiv.sum_comp (contrEquiv1 d n hr hs).symm]
  exact Finset.sum_congr rfl fun k _ => by rw [hL k, hR k]

/-- The host's `dot_general`, one contracted axis of extent `n`: at `j` it is `∑ k, lhs (L k) · rhs (R k)`. -/
theorem dotGeneral_single {sl sr so : Shape} {φ₁ φ₂ : FTy} (d : DotDims sl sr so) (n : ℕ) (hr : d.contr.rank = 1)
    (hs : d.contr.size ⟨0, by omega⟩ = n) (lhs : FVec Ideal sl φ₁) (rhs : FVec Ideal sr φ₂) (j : so.Idx)
    (L : Fin n → sl.Idx) (R : Fin n → sr.Idx)
    (hL : ∀ k, d.lhsIdx j ((contrEquiv1 d n hr hs).symm k) = L k)
    (hR : ∀ k, d.rhsIdx j ((contrEquiv1 d n hr hs).symm k) = R k) :
    Host.dotGeneral d none lhs rhs j = ∑ k : Fin n, lhs (L k) * rhs (R k) := by
  simp only [Host.dotGeneral]
  rw [Ideal.dotGeneral_apply, ← Equiv.sum_comp (contrEquiv1 d n hr hs).symm]
  exact Finset.sum_congr rfl fun k _ => by rw [hL k, hR k]

end Cert.LibContract1

end
-- ==== Proof.Spec.lean ====
/-
  One output unit of a two-layer perceptron on one row, on the extended reals.

  The row is a node's 64 features `xr` followed by its 48 aggregated edge features `er`; the first layer's weight
  matrix has 112 = 64 + 48 rows, `wa` its first 64 and `wb` its last 48. Hidden unit `k` of the row is
      max (xr · wa[·, k] + er · wb[·, k] + b1 k) 0
  and the output unit with second-layer column `w2` and bias `b2` is the sum over the 256 hidden units of the hidden
  value times `w2 k`, plus `b2`.

  The one law stated here joins the two ways of forming the first layer's pre-activation: the product of the
  concatenated row with the whole 112-row matrix is a sum of 112 terms, and that sum is its first 64 terms plus its last
  48 — a regrouping of a finite sum. Addition of extended reals is commutative and associative, and nothing is
  distributed or cancelled, so the law holds at infinite entries too.
-/
import Idealize.ShloMosaic.PureOps.Ideal.Laws
import Idealize.ShloMosaic.Lib.ValueIdx

noncomputable section

namespace Cert.Mlp

open Idealize.ShloMosaic

/-- Row `j` of the first 64 rows of a 112-row matrix. -/
abbrev top (j : Fin 64) : Fin 112 := ⟨j.val, by omega⟩
/-- Row `j` of the last 48 rows of a 112-row matrix. -/
abbrev bot (j : Fin 48) : Fin 112 := ⟨64 + j.val, by omega⟩

/-- A hidden unit of one row: the rectified sum of the two partial dot products and the bias. -/
def hidden (xr : Fin 64 → EReal) (er : Fin 48 → EReal) (wa : Fin 64 → EReal) (wb : Fin 48 → EReal) (b : EReal) : EReal :=
  max (((∑ j : Fin 64, xr j * wa j) + ∑ j : Fin 48, er j * wb j) + b) 0

/-- An output unit of one row: the hidden units against a column of the second layer, plus its bias. -/
def out (xr : Fin 64 → EReal) (er : Fin 48 → EReal) (wa : Fin 64 → Fin 256 → EReal) (wb : Fin 48 → Fin 256 → EReal)
    (b1 : Fin 256 → EReal) (w2 : Fin 256 → EReal) (b2 : EReal) : EReal :=
  (∑ k : Fin 256, hidden xr er (fun j => wa j k) (fun j => wb j k) (b1 k) * w2 k) + b2

/-- A sum over the 112 rows is the sum over the first 64 plus the sum over the last 48. -/
theorem sum_split (f : Fin 112 → EReal) :
    ∑ j : Fin 112, f j = (∑ j : Fin 64, f (top j)) + ∑ j : Fin 48, f (bot j) :=
  Fin.sum_univ_add (a := 64) (b := 48) f

/-- The concatenated row against the whole first-layer matrix: when `cat` is `xr` on the first 64 positions and `er`
    on the last 48, and `w` is `wa` on the first 64 rows and `wb` on the last 48, the 112-term dot product is the sum
    of the two partial dot products. -/
theorem concat_dot (xr : Fin 64 → EReal) (er : Fin 48 → EReal) (wa : Fin 64 → EReal) (wb : Fin 48 → EReal)
    (cat w : Fin 112 → EReal) (hx : ∀ j, cat (top j) = xr j) (he : ∀ j, cat (bot j) = er j)
    (ha : ∀ j, w (top j) = wa j) (hb : ∀ j, w (bot j) = wb j) :
    ∑ j : Fin 112, cat j * w j = (∑ j : Fin 64, xr j * wa j) + ∑ j : Fin 48, er j * wb j := by
  rw [sum_split]
  simp only [hx, he, ha, hb]

/-! ## The result array

Over the six arrays the computation reads — the node features `X` [100000, 64], the aggregated edge features `E`
[100000, 48], the first layer `W1` [112, 256] and `B1` [256], the second layer `W2` [256, 64] and `B2` [64] —
entry (r, c) of the result is the output unit of row `r` against column `c`, the first layer's matrix cut after its
first 64 rows. -/

open Idealize.ShloMosaic.ValueIdx in
/-- Entry (r, c) of the result. -/
def entry (X : (⟨2, ![100000, 64]⟩ : Shape).Idx → EReal) (E : (⟨2, ![100000, 48]⟩ : Shape).Idx → EReal)
    (W1 : (⟨2, ![112, 256]⟩ : Shape).Idx → EReal) (B1 : (⟨1, ![256]⟩ : Shape).Idx → EReal)
    (W2 : (⟨2, ![256, 64]⟩ : Shape).Idx → EReal) (B2 : (⟨1, ![64]⟩ : Shape).Idx → EReal)
    (r : Fin 100000) (c : Fin 64) : EReal :=
  out (fun j => X (ix2 r j)) (fun j => E (ix2 r j)) (fun j k => W1 (ix2 (top j) k)) (fun j k => W1 (ix2 (bot j) k))
    (fun k => B1 (ix1 k)) (fun k => W2 (ix2 k c)) (B2 (ix1 c))

/-- The result array: `entry` at an index's two coordinates. -/
def result (X : (⟨2, ![100000, 64]⟩ : Shape).Idx → EReal) (E : (⟨2, ![100000, 48]⟩ : Shape).Idx → EReal)
    (W1 : (⟨2, ![112, 256]⟩ : Shape).Idx → EReal) (B1 : (⟨1, ![256]⟩ : Shape).Idx → EReal)
    (W2 : (⟨2, ![256, 64]⟩ : Shape).Idx → EReal) (B2 : (⟨1, ![64]⟩ : Shape).Idx → EReal) :
    (⟨2, ![100000, 64]⟩ : Shape).Idx → EReal :=
  fun i => entry X E W1 B1 W2 B2 (i 0) (i 1)

end Cert.Mlp

end
-- ==== Proof.KernelBody.lean ====
/-
  What the kernel's body stores, read at an entry of the output block, on the extended reals.

  At a grid point the body holds a block of 5000 node rows `x0` (64 features each), the same rows of the aggregated
  edge features `x1` (48 each), the two row groups `x2` (64 rows) and `x3` (48 rows) of the first-layer weights, the
  first bias `x4` as a [1, 256] row, the second-layer weights `x5` and the second bias `x6` as a [1, 64] row. Its
  one store writes
      (max ((x0 · x2 + x1 · x3) + x4) 0) · x5 + x6,
  the three products being matrix products accumulated from zero and the roundings to the narrow format before each
  product being the identity on the extended reals. Entry (p, q) of that block is therefore the perceptron's output
  unit (Spec) of row `p` of `x0` and `x1` against column `q` of `x5`.
-/
import proofs.«130311_j5428838662513_1_alg».proof.Proof.Gen.KernelIdeal.Skeleton
import proofs.«130311_j5428838662513_1_alg».proof.Proof.LibContract1
import proofs.«130311_j5428838662513_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx

/-! ## The three matrix products at an entry

Each contracts the left operand's columns against the right operand's rows, from a zero accumulator: entry (p, q) is
the sum over the contracted coordinate `j` of left (p, j) times right (j, q). For each product, first where its
dimension numbers send a result index and a contraction index in each operand, axis by axis. -/

theorem matmul_x_lhs0 (i : S5000x256.Idx) (c : dot_S5000x64_S64x256_S5000x256_1_0_0_1_n_n.contr.Idx) : (dot_S5000x64_S64x256_S5000x256_1_0_0_1_n_n.lhsIdx i c 0).val = (i 0).val := by
  unfold DotDims.lhsIdx
  rw [dif_neg (show ¬(0 : Fin S5000x64.rank) ∈ dot_S5000x64_S64x256_S5000x256_1_0_0_1_n_n.lhsBatch by decide),
    dif_pos (show (0 : Fin S5000x64.rank) ∈ dot_S5000x64_S64x256_S5000x256_1_0_0_1_n_n.lhsNonContracting by decide)]
  rfl
theorem matmul_x_lhs1 (i : S5000x256.Idx) (c : dot_S5000x64_S64x256_S5000x256_1_0_0_1_n_n.contr.Idx) : (dot_S5000x64_S64x256_S5000x256_1_0_0_1_n_n.lhsIdx i c 1).val = (c ⟨0, by decide⟩).val :=
  dot_S5000x64_S64x256_S5000x256_1_0_0_1_n_n.lhsIdx_val_of_single rfl i c
theorem matmul_x_rhs0 (i : S5000x256.Idx) (c : dot_S5000x64_S64x256_S5000x256_1_0_0_1_n_n.contr.Idx) : (dot_S5000x64_S64x256_S5000x256_1_0_0_1_n_n.rhsIdx i c 0).val = (c ⟨0, by decide⟩).val :=
  dot_S5000x64_S64x256_S5000x256_1_0_0_1_n_n.rhsIdx_val_of_single rfl i c
theorem matmul_x_rhs1 (i : S5000x256.Idx) (c : dot_S5000x64_S64x256_S5000x256_1_0_0_1_n_n.contr.Idx) : (dot_S5000x64_S64x256_S5000x256_1_0_0_1_n_n.rhsIdx i c 1).val = (i 1).val := by
  unfold DotDims.rhsIdx
  rw [dif_neg (show ¬(1 : Fin S64x256.rank) ∈ dot_S5000x64_S64x256_S5000x256_1_0_0_1_n_n.rhsBatch by decide),
    dif_pos (show (1 : Fin S64x256.rank) ∈ dot_S5000x64_S64x256_S5000x256_1_0_0_1_n_n.rhsNonContracting by decide)]
  rfl

/-- The node-feature block against the first 64 weight rows. -/
theorem matmul_x (l : FVec Ideal S5000x64 .bf16) (r : FVec Ideal S64x256 .bf16) (p : Fin 5000) (q : Fin 256) :
    matmul dot_S5000x64_S64x256_S5000x256_1_0_0_1_n_n none l r (constant (F := Ideal) S5000x256 .f32 0x00000000#32) (ix2 p q)
      = ∑ j : Fin 64, l (ix2 p j) * r (ix2 j q) := by
  refine Cert.LibContract1.matmul_zero_single dot_S5000x64_S64x256_S5000x256_1_0_0_1_n_n 64 rfl rfl l r (ix2 p q)
    (fun j => ix2 p j) (fun j => ix2 j q) (fun j => ?_) (fun j => ?_)
  · have hj := contrEquiv1_symm_val dot_S5000x64_S64x256_S5000x256_1_0_0_1_n_n 64 rfl rfl j
    funext a; apply Fin.ext
    match a with
    | ⟨0, _⟩ => exact matmul_x_lhs0 _ _
    | ⟨1, _⟩ => exact (matmul_x_lhs1 _ _).trans hj
  · have hj := contrEquiv1_symm_val dot_S5000x64_S64x256_S5000x256_1_0_0_1_n_n 64 rfl rfl j
    funext a; apply Fin.ext
    match a with
    | ⟨0, _⟩ => exact (matmul_x_rhs0 _ _).trans hj
    | ⟨1, _⟩ => exact matmul_x_rhs1 _ _

theorem matmul_e_lhs0 (i : S5000x256.Idx) (c : dot_S5000x48_S48x256_S5000x256_1_0_0_1_n_n.contr.Idx) : (dot_S5000x48_S48x256_S5000x256_1_0_0_1_n_n.lhsIdx i c 0).val = (i 0).val := by
  unfold DotDims.lhsIdx
  rw [dif_neg (show ¬(0 : Fin S5000x48.rank) ∈ dot_S5000x48_S48x256_S5000x256_1_0_0_1_n_n.lhsBatch by decide),
    dif_pos (show (0 : Fin S5000x48.rank) ∈ dot_S5000x48_S48x256_S5000x256_1_0_0_1_n_n.lhsNonContracting by decide)]
  rfl
theorem matmul_e_lhs1 (i : S5000x256.Idx) (c : dot_S5000x48_S48x256_S5000x256_1_0_0_1_n_n.contr.Idx) : (dot_S5000x48_S48x256_S5000x256_1_0_0_1_n_n.lhsIdx i c 1).val = (c ⟨0, by decide⟩).val :=
  dot_S5000x48_S48x256_S5000x256_1_0_0_1_n_n.lhsIdx_val_of_single rfl i c
theorem matmul_e_rhs0 (i : S5000x256.Idx) (c : dot_S5000x48_S48x256_S5000x256_1_0_0_1_n_n.contr.Idx) : (dot_S5000x48_S48x256_S5000x256_1_0_0_1_n_n.rhsIdx i c 0).val = (c ⟨0, by decide⟩).val :=
  dot_S5000x48_S48x256_S5000x256_1_0_0_1_n_n.rhsIdx_val_of_single rfl i c
theorem matmul_e_rhs1 (i : S5000x256.Idx) (c : dot_S5000x48_S48x256_S5000x256_1_0_0_1_n_n.contr.Idx) : (dot_S5000x48_S48x256_S5000x256_1_0_0_1_n_n.rhsIdx i c 1).val = (i 1).val := by
  unfold DotDims.rhsIdx
  rw [dif_neg (show ¬(1 : Fin S48x256.rank) ∈ dot_S5000x48_S48x256_S5000x256_1_0_0_1_n_n.rhsBatch by decide),
    dif_pos (show (1 : Fin S48x256.rank) ∈ dot_S5000x48_S48x256_S5000x256_1_0_0_1_n_n.rhsNonContracting by decide)]
  rfl

/-- The edge-feature block against the last 48 weight rows. -/
theorem matmul_e (l : FVec Ideal S5000x48 .bf16) (r : FVec Ideal S48x256 .bf16) (p : Fin 5000) (q : Fin 256) :
    matmul dot_S5000x48_S48x256_S5000x256_1_0_0_1_n_n none l r (constant (F := Ideal) S5000x256 .f32 0x00000000#32) (ix2 p q)
      = ∑ j : Fin 48, l (ix2 p j) * r (ix2 j q) := by
  refine Cert.LibContract1.matmul_zero_single dot_S5000x48_S48x256_S5000x256_1_0_0_1_n_n 48 rfl rfl l r (ix2 p q)
    (fun j => ix2 p j) (fun j => ix2 j q) (fun j => ?_) (fun j => ?_)
  · have hj := contrEquiv1_symm_val dot_S5000x48_S48x256_S5000x256_1_0_0_1_n_n 48 rfl rfl j
    funext a; apply Fin.ext
    match a with
    | ⟨0, _⟩ => exact matmul_e_lhs0 _ _
    | ⟨1, _⟩ => exact (matmul_e_lhs1 _ _).trans hj
  · have hj := contrEquiv1_symm_val dot_S5000x48_S48x256_S5000x256_1_0_0_1_n_n 48 rfl rfl j
    funext a; apply Fin.ext
    match a with
    | ⟨0, _⟩ => exact (matmul_e_rhs0 _ _).trans hj
    | ⟨1, _⟩ => exact matmul_e_rhs1 _ _

theorem matmul_h_lhs0 (i : S5000x64.Idx) (c : dot_S5000x256_S256x64_S5000x64_1_0_0_1_n_n.contr.Idx) : (dot_S5000x256_S256x64_S5000x64_1_0_0_1_n_n.lhsIdx i c 0).val = (i 0).val := by
  unfold DotDims.lhsIdx
  rw [dif_neg (show ¬(0 : Fin S5000x256.rank) ∈ dot_S5000x256_S256x64_S5000x64_1_0_0_1_n_n.lhsBatch by decide),
    dif_pos (show (0 : Fin S5000x256.rank) ∈ dot_S5000x256_S256x64_S5000x64_1_0_0_1_n_n.lhsNonContracting by decide)]
  rfl
theorem matmul_h_lhs1 (i : S5000x64.Idx) (c : dot_S5000x256_S256x64_S5000x64_1_0_0_1_n_n.contr.Idx) : (dot_S5000x256_S256x64_S5000x64_1_0_0_1_n_n.lhsIdx i c 1).val = (c ⟨0, by decide⟩).val :=
  dot_S5000x256_S256x64_S5000x64_1_0_0_1_n_n.lhsIdx_val_of_single rfl i c
theorem matmul_h_rhs0 (i : S5000x64.Idx) (c : dot_S5000x256_S256x64_S5000x64_1_0_0_1_n_n.contr.Idx) : (dot_S5000x256_S256x64_S5000x64_1_0_0_1_n_n.rhsIdx i c 0).val = (c ⟨0, by decide⟩).val :=
  dot_S5000x256_S256x64_S5000x64_1_0_0_1_n_n.rhsIdx_val_of_single rfl i c
theorem matmul_h_rhs1 (i : S5000x64.Idx) (c : dot_S5000x256_S256x64_S5000x64_1_0_0_1_n_n.contr.Idx) : (dot_S5000x256_S256x64_S5000x64_1_0_0_1_n_n.rhsIdx i c 1).val = (i 1).val := by
  unfold DotDims.rhsIdx
  rw [dif_neg (show ¬(1 : Fin S256x64.rank) ∈ dot_S5000x256_S256x64_S5000x64_1_0_0_1_n_n.rhsBatch by decide),
    dif_pos (show (1 : Fin S256x64.rank) ∈ dot_S5000x256_S256x64_S5000x64_1_0_0_1_n_n.rhsNonContracting by decide)]
  rfl

/-- The hidden block against the second-layer weights. -/
theorem matmul_h (l : FVec Ideal S5000x256 .bf16) (r : FVec Ideal S256x64 .bf16) (p : Fin 5000) (q : Fin 64) :
    matmul dot_S5000x256_S256x64_S5000x64_1_0_0_1_n_n none l r (constant (F := Ideal) S5000x64 .f32 0x00000000#32) (ix2 p q)
      = ∑ j : Fin 256, l (ix2 p j) * r (ix2 j q) := by
  refine Cert.LibContract1.matmul_zero_single dot_S5000x256_S256x64_S5000x64_1_0_0_1_n_n 256 rfl rfl l r (ix2 p q)
    (fun j => ix2 p j) (fun j => ix2 j q) (fun j => ?_) (fun j => ?_)
  · have hj := contrEquiv1_symm_val dot_S5000x256_S256x64_S5000x64_1_0_0_1_n_n 256 rfl rfl j
    funext a; apply Fin.ext
    match a with
    | ⟨0, _⟩ => exact matmul_h_lhs0 _ _
    | ⟨1, _⟩ => exact (matmul_h_lhs1 _ _).trans hj
  · have hj := contrEquiv1_symm_val dot_S5000x256_S256x64_S5000x64_1_0_0_1_n_n 256 rfl rfl j
    funext a; apply Fin.ext
    match a with
    | ⟨0, _⟩ => exact (matmul_h_rhs0 _ _).trans hj
    | ⟨1, _⟩ => exact matmul_h_rhs1 _ _

/-! ## The stored block at an entry -/

/-- The rectified pre-activation block — the sum of the two first-layer products plus the bias row spread over the
    5000 rows, against zero — at (p, k) is hidden unit `k` of row `p`. -/
theorem hidden_apply (x0 : Vec Ideal S5000x64 .f32) (x1 : Vec Ideal S5000x48 .f32) (x2 : Vec Ideal S64x256 .f32)
    (x3 : Vec Ideal S48x256 .f32) (x4 : Vec Ideal S1x256 .f32) (p : Fin 5000) (k : Fin 256) :
    maximumf (addf (addf
        (matmul dot_S5000x64_S64x256_S5000x256_1_0_0_1_n_n none (truncf .bf16 x0 bitsLt_bf16_f32)
          (truncf .bf16 x2 bitsLt_bf16_f32) (constant (F := Ideal) S5000x256 .f32 0x00000000#32))
        (matmul dot_S5000x48_S48x256_S5000x256_1_0_0_1_n_n none (truncf .bf16 x1 bitsLt_bf16_f32)
          (truncf .bf16 x3 bitsLt_bf16_f32) (constant (F := Ideal) S5000x256 .f32 0x00000000#32)))
        (broadcastTo S5000x256 x4 broadcasts_S1x256_S5000x256))
      (broadcast S5000x256 (Scalar.ofBits (F := Ideal) .f32 0x00000000#32)) (ix2 p k)
      = Cert.Mlp.hidden (fun j => x0 (ix2 p j)) (fun j => x1 (ix2 p j)) (fun j => x2 (ix2 j k)) (fun j => x3 (ix2 j k))
          (x4 (ix2 (0 : Fin 1) k)) := by
  rw [maximumf_apply, addf_apply, addf_apply, matmul_x, matmul_e, broadcastTo_1b_ab_apply, broadcast_apply]
  show max _ (Ideal.ofBits .f32 0x00000000#32) = _
  rw [Ideal.ofBits_zero_f32]
  rfl

/-- ENTRY (p, q) OF THE STORED BLOCK is the perceptron's output unit of row `p` against column `q`. -/
theorem payload_apply (x0 : Vec Ideal S5000x64 .f32) (x1 : Vec Ideal S5000x48 .f32) (x2 : Vec Ideal S64x256 .f32)
    (x3 : Vec Ideal S48x256 .f32) (x4 : Vec Ideal S1x256 .f32) (x5 : Vec Ideal S256x64 .f32) (x6 : Vec Ideal S1x64 .f32)
    (p : Fin 5000) (q : Fin 64) :
    k0_pay1 x0 x1 x2 x3 x4 x5 x6 (ix2 p q)
      = Cert.Mlp.out (fun j => x0 (ix2 p j)) (fun j => x1 (ix2 p j)) (fun j k => x2 (ix2 j k)) (fun j k => x3 (ix2 j k))
          (fun k => x4 (ix2 (0 : Fin 1) k)) (fun k => x5 (ix2 k q)) (x6 (ix2 (0 : Fin 1) q)) := by
  unfold k0_pay1 Cert.Mlp.out
  dsimp only
  simp only [shapeCast_self]
  rw [addf_apply, matmul_h, broadcastTo_1b_ab_apply]
  refine congrArg (· + x6 (ix2 (0 : Fin 1) q)) (Finset.sum_congr rfl fun k _ => ?_)
  exact congrArg (· * x5 (ix2 k q)) (hidden_apply x0 x1 x2 x3 x4 p k)

/-- So, when the seven loaded blocks are the rows and columns of the six arrays that entry (r, c) of the result reads —
    rows `p` of the two feature blocks are rows `r` of `X` and `E`, the two weight groups are the first 64 and the last
    48 rows of `W1`, the bias rows are `B1` and `B2`, and column `q` of the second-layer block is column `c` of `W2` —
    entry (p, q) of the stored block is entry (r, c) of the result. -/
theorem block_entry (X : S100000x64.Idx → EReal) (E : S100000x48.Idx → EReal) (W1 : S112x256.Idx → EReal)
    (B1 : S256.Idx → EReal) (W2 : S256x64.Idx → EReal) (B2 : S64.Idx → EReal)
    (x0 : Vec Ideal S5000x64 .f32) (x1 : Vec Ideal S5000x48 .f32) (x2 : Vec Ideal S64x256 .f32)
    (x3 : Vec Ideal S48x256 .f32) (x4 : Vec Ideal S1x256 .f32) (x5 : Vec Ideal S256x64 .f32) (x6 : Vec Ideal S1x64 .f32)
    (p : Fin 5000) (q : Fin 64) (r : Fin 100000) (c : Fin 64)
    (h0 : ∀ j : Fin 64, x0 (ix2 p j) = X (ix2 r j)) (h1 : ∀ j : Fin 48, x1 (ix2 p j) = E (ix2 r j))
    (h2 : ∀ (j : Fin 64) (k : Fin 256), x2 (ix2 j k) = W1 (ix2 (Cert.Mlp.top j) k))
    (h3 : ∀ (j : Fin 48) (k : Fin 256), x3 (ix2 j k) = W1 (ix2 (Cert.Mlp.bot j) k))
    (h4 : ∀ k : Fin 256, x4 (ix2 (0 : Fin 1) k) = B1 (ix1 k))
    (h5 : ∀ k : Fin 256, x5 (ix2 k q) = W2 (ix2 k c)) (h6 : x6 (ix2 (0 : Fin 1) q) = B2 (ix1 c)) :
    k0_pay1 x0 x1 x2 x3 x4 x5 x6 (ix2 p q) = Cert.Mlp.entry X E W1 B1 W2 B2 r c := by
  rw [payload_apply]
  unfold Cert.Mlp.entry
  simp only [h0, h1, h2, h3, h4, h5, h6]

end Cert.KernelIdeal.Body

end
-- ==== Proof.KernelHost.lean ====
/-
  What the host operations before the region leave in the arrays the region's windows stage.

  Of the eight windows, two stage arguments as launched (the node features and the second-layer weights) and one is
  the result. The other five stage arrays the host computes first: the aggregated edge features (the scatter-mean of
  the edge features onto their source nodes), the first 64 and the last 48 rows of the first-layer weights, and the two
  biases re-laid as one-row matrices. Here each of those five is read as a term of the arguments as launched; the four
  re-laid ones also at an index.
-/
import proofs.«130311_j5428838662513_1_alg».proof.Proof.Gen.KernelIdeal.Frame
import proofs.«130311_j5428838662513_1_alg».proof.Proof.Spec
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Host

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-- The scatter-mean of the edge features `x2` onto the nodes the first row of the edge index `x1` names: the
    per-node sums of the edge features divided by the per-node edge counts, a count below one read as one. -/
def aggregate (x1 : (⟨S2x1600000, .i32⟩ : BufTy).Contents (Elt Ideal)) (x2 : (⟨S1600000x48, .f32⟩ : BufTy).Contents (Elt Ideal)) :
    (⟨S100000x48, .f32⟩ : BufTy).Contents (Elt Ideal) :=
  Host.divf (F := Ideal)
    (Host.scatterAdd (F := Ideal) scatter_S100000x48_S1600000x1_S1600000x48_1_0_0_1
      (broadcastInDim S100000x48 ![] bcast_S_S100000x48 (constant (F := Ideal) S_ .f32 0x00000000#32))
      (broadcastInDim S1600000x1 ![0] bcast_S1600000_S1600000x1_0
        (shapeCast _ (extractStridedSlice S1x1600000 ![0, 0] x1 slices_S2x1600000_S1x1600000_0_0) shapeCasts_S1x1600000_S1600000))
      x2)
    (broadcastInDim S100000x48 ![0, 1] bcast_S100000x1_S100000x48_0_1
      (broadcastInDim S100000x1 ![0] bcast_S100000_S100000x1_0
        (maximumf (F := Ideal)
          (Host.scatterAdd (F := Ideal) scatter_S100000_S1600000x1_S1600000_n_0_0_1
            (broadcastInDim S100000 ![] bcast_S_S100000 (constant (F := Ideal) S_ .f32 0x00000000#32))
            (broadcastInDim S1600000x1 ![0] bcast_S1600000_S1600000x1_0
              (shapeCast _ (extractStridedSlice S1x1600000 ![0, 0] x1 slices_S2x1600000_S1x1600000_0_0) shapeCasts_S1x1600000_S1600000))
            (broadcastInDim S1600000 ![] bcast_S_S1600000 (constant (F := Ideal) S_ .f32 0x3F800000#32)))
          (broadcastInDim S100000 ![] bcast_S_S100000 (constant (F := Ideal) S_ .f32 0x3F800000#32)))))

/-- The region finds the aggregated edge features in window 1's array. -/
theorem V_agg (c : Dev nD) :
    (V m c main_v13 : S100000x48.Idx → EReal)
      = aggregate (m ((c : Thread nD τ).loc main_arg1)) (m ((c : Thread nD τ).loc main_arg2)) := by
  dsimp only [Gen.V, Gen.hostOps0]
  after_results <;> rfl

/-- Window 2's array is the first 64 rows of the first-layer weights. -/
theorem V_w1a (c : Dev nD) :
    (V m c main_v14 : S64x256.Idx → EReal)
      = extractStridedSlice S64x256 ![0, 0] (m ((c : Thread nD τ).loc main_arg5)) slices_S112x256_S64x256_0_0 := by
  dsimp only [Gen.V, Gen.hostOps0]
  after_results <;> rfl

/-- Window 3's array is the last 48 rows of the first-layer weights. -/
theorem V_w1b (c : Dev nD) :
    (V m c main_v15 : S48x256.Idx → EReal)
      = extractStridedSlice S48x256 ![64, 0] (m ((c : Thread nD τ).loc main_arg5)) slices_S112x256_S48x256_64_0 := by
  dsimp only [Gen.V, Gen.hostOps0]
  after_results <;> rfl

/-- Window 4's array is the first bias as a one-row matrix. -/
theorem V_b1 (c : Dev nD) :
    (V m c main_v16 : S1x256.Idx → EReal)
      = shapeCast S1x256 (m ((c : Thread nD τ).loc main_arg6)) shapeCasts_S256_S1x256 := by
  dsimp only [Gen.V, Gen.hostOps0]
  after_results <;> rfl

/-- Window 6's array is the second bias as a one-row matrix. -/
theorem V_b2 (c : Dev nD) :
    (V m c main_v17 : S1x64.Idx → EReal)
      = shapeCast S1x64 (m ((c : Thread nD τ).loc main_arg8)) shapeCasts_S64_S1x64 := by
  dsimp only [Gen.V, Gen.hostOps0]
  after_results <;> rfl

/-! ## The re-laid arrays at an index -/

/-- Row `j` of the first group is row `j` of the weights. -/
theorem V_w1a_apply (c : Dev nD) (j : Fin 64) (k : Fin 256) :
    (V m c main_v14 : S64x256.Idx → EReal) (ix2 j k)
      = (m ((c : Thread nD τ).loc main_arg5) : S112x256.Idx → EReal) (ix2 (Cert.Mlp.top j) k) := by
  rw [V_w1a]
  exact slice2_axis0_apply 0 _ slices_S112x256_S64x256_0_0 j k (Cert.Mlp.top j) (Nat.zero_add _).symm

/-- Row `j` of the second group is row `64 + j` of the weights. -/
theorem V_w1b_apply (c : Dev nD) (j : Fin 48) (k : Fin 256) :
    (V m c main_v15 : S48x256.Idx → EReal) (ix2 j k)
      = (m ((c : Thread nD τ).loc main_arg5) : S112x256.Idx → EReal) (ix2 (Cert.Mlp.bot j) k) := by
  rw [V_w1b]
  exact slice2_axis0_apply 64 _ slices_S112x256_S48x256_64_0 j k (Cert.Mlp.bot j) rfl

/-- The one row of the re-laid first bias is the bias. -/
theorem V_b1_apply (c : Dev nD) (k : Fin 256) :
    (V m c main_v16 : S1x256.Idx → EReal) (ix2 (0 : Fin 1) k)
      = (m ((c : Thread nD τ).loc main_arg6) : S256.Idx → EReal) (ix1 k) := by
  rw [V_b1]
  exact shapeCast_a_1a_apply _ shapeCasts_S256_S1x256 0 k

/-- The one row of the re-laid second bias is the bias. -/
theorem V_b2_apply (c : Dev nD) (q : Fin 64) :
    (V m c main_v17 : S1x64.Idx → EReal) (ix2 (0 : Fin 1) q)
      = (m ((c : Thread nD τ).loc main_arg8) : S64.Idx → EReal) (ix1 q) := by
  rw [V_b2]
  exact shapeCast_a_1a_apply _ shapeCasts_S64_S1x64 0 q

end Cert.KernelIdeal.Host

end
-- ==== Proof.KernelArray.lean ====
/-
  From what each grid point writes back to the whole result array, on the extended reals.

  The grid has 20 points. At point `t` the windows of the node features, of the aggregated edge features and of the
  result hold rows `5000 t … 5000 t + 4999` of their arrays; the other five windows hold their whole arrays at every
  point. So row `p` of a row block at point `t` is row `5000 t + p` of the array, entry (p, q) of what point `t` writes
  back is entry (5000 t + p, q) of the perceptron's result, and since the 20 row blocks tile the 100000 rows (row `r`
  lies in block `r / 5000`) the result array ends holding the perceptron's result at every index.
-/
import proofs.«130311_j5428838662513_1_alg».proof.Proof.Gen.KernelIdeal.Value
import proofs.«130311_j5428838662513_1_alg».proof.Proof.KernelBody
import proofs.«130311_j5428838662513_1_alg».proof.Proof.KernelHost
import Idealize.ShloMosaic.Lib.Pipeline.Value
import Idealize.ShloMosaic.Lib.ValueIdx

noncomputable section

namespace Cert.KernelIdeal.Array

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## Which block each window holds at a point (decided over the 20 points) -/

theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem idx5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem idx6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
theorem idx7 : ∀ t : Fin cfg0.N, win0_7.index t (0 : Fin 2) = t.val ∧ win0_7.index t (1 : Fin 2) = 0 :=
  (by decide +kernel : ∀ t : Fin grid0.N, win0_7.index t (0 : Fin 2) = t.val ∧ win0_7.index t (1 : Fin 2) = 0)

/-! ## The input blocks read at an entry

First for any contents `A` of the window's array, then for the contents the region finds. -/

/-- Row `p` of the node-feature block at point `t` is row `5000 t + p` of the node features. -/
theorem read0 (c : Dev nD) (A : Buf (Elt Ideal) ((c : Thread nD τ).loc main_arg0)) (t : Fin cfg0.N) (p : Fin 5000) (j : Fin 64)
    (r : Fin 100000) (hr : r.val = 5000 * t.val + p.val) :
    (((cfg0.win 0).blk t).view.read (Elt Ideal) A : Vec Ideal S5000x64 .f32) (ix2 p j) = (A : S100000x64.Idx → EReal) (ix2 r j) := by
  obtain ⟨e0, e1⟩ := idx0 t
  rw [View.read_apply]
  refine congrArg (A : S100000x64.Idx → EReal) (funext fun a => Fin.ext ?_)
  match a with
  | ⟨0, _⟩ => show win0_0.index t (0 : Fin 2) * 5000 + 1 * p.val = r.val; rw [e0, hr]; omega
  | ⟨1, _⟩ => show win0_0.index t (1 : Fin 2) * 64 + 1 * j.val = j.val; rw [e1]; omega

theorem blk0_apply (c : Dev nD) (t : Fin cfg0.N) (p : Fin 5000) (j : Fin 64) (r : Fin 100000)
    (hr : r.val = 5000 * t.val + p.val) :
    (iblk m c 0 t : Vec Ideal S5000x64 .f32) (ix2 p j) = (V m c main_arg0 : S100000x64.Idx → EReal) (ix2 r j) := by
  unfold iblk
  exact read0 c _ t p j r hr

/-- Row `p` of the edge-feature block at point `t` is row `5000 t + p` of the aggregated edge features. -/
theorem read1 (c : Dev nD) (A : Buf (Elt Ideal) ((c : Thread nD τ).loc main_v13)) (t : Fin cfg0.N) (p : Fin 5000) (j : Fin 48)
    (r : Fin 100000) (hr : r.val = 5000 * t.val + p.val) :
    (((cfg0.win 1).blk t).view.read (Elt Ideal) A : Vec Ideal S5000x48 .f32) (ix2 p j) = (A : S100000x48.Idx → EReal) (ix2 r j) := by
  obtain ⟨e0, e1⟩ := idx1 t
  rw [View.read_apply]
  refine congrArg (A : S100000x48.Idx → EReal) (funext fun a => Fin.ext ?_)
  match a with
  | ⟨0, _⟩ => show win0_1.index t (0 : Fin 2) * 5000 + 1 * p.val = r.val; rw [e0, hr]; omega
  | ⟨1, _⟩ => show win0_1.index t (1 : Fin 2) * 48 + 1 * j.val = j.val; rw [e1]; omega

theorem blk1_apply (c : Dev nD) (t : Fin cfg0.N) (p : Fin 5000) (j : Fin 48) (r : Fin 100000)
    (hr : r.val = 5000 * t.val + p.val) :
    (iblk m c 1 t : Vec Ideal S5000x48 .f32) (ix2 p j) = (V m c main_v13 : S100000x48.Idx → EReal) (ix2 r j) := by
  unfold iblk
  exact read1 c _ t p j r hr

/-- The first weight group is held whole at every point. -/
theorem read2 (c : Dev nD) (A : Buf (Elt Ideal) ((c : Thread nD τ).loc main_v14)) (t : Fin cfg0.N) (p : Fin 64) (j : Fin 256) :
    (((cfg0.win 2).blk t).view.read (Elt Ideal) A : Vec Ideal S64x256 .f32) (ix2 p j) = (A : S64x256.Idx → EReal) (ix2 p j) := by
  obtain ⟨e0, e1⟩ := idx2 t
  rw [View.read_apply]
  refine congrArg (A : S64x256.Idx → EReal) (funext fun a => Fin.ext ?_)
  match a with
  | ⟨0, _⟩ => show win0_2.index t (0 : Fin 2) * 64 + 1 * p.val = p.val; rw [e0]; omega
  | ⟨1, _⟩ => show win0_2.index t (1 : Fin 2) * 256 + 1 * j.val = j.val; rw [e1]; omega

theorem blk2_apply (c : Dev nD) (t : Fin cfg0.N) (p : Fin 64) (j : Fin 256) :
    (iblk m c 2 t : Vec Ideal S64x256 .f32) (ix2 p j) = (V m c main_v14 : S64x256.Idx → EReal) (ix2 p j) := by
  unfold iblk
  exact read2 c _ t p j

/-- The second weight group is held whole at every point. -/
theorem read3 (c : Dev nD) (A : Buf (Elt Ideal) ((c : Thread nD τ).loc main_v15)) (t : Fin cfg0.N) (p : Fin 48) (j : Fin 256) :
    (((cfg0.win 3).blk t).view.read (Elt Ideal) A : Vec Ideal S48x256 .f32) (ix2 p j) = (A : S48x256.Idx → EReal) (ix2 p j) := by
  obtain ⟨e0, e1⟩ := idx3 t
  rw [View.read_apply]
  refine congrArg (A : S48x256.Idx → EReal) (funext fun a => Fin.ext ?_)
  match a with
  | ⟨0, _⟩ => show win0_3.index t (0 : Fin 2) * 48 + 1 * p.val = p.val; rw [e0]; omega
  | ⟨1, _⟩ => show win0_3.index t (1 : Fin 2) * 256 + 1 * j.val = j.val; rw [e1]; omega

theorem blk3_apply (c : Dev nD) (t : Fin cfg0.N) (p : Fin 48) (j : Fin 256) :
    (iblk m c 3 t : Vec Ideal S48x256 .f32) (ix2 p j) = (V m c main_v15 : S48x256.Idx → EReal) (ix2 p j) := by
  unfold iblk
  exact read3 c _ t p j

/-- The first bias row is held whole at every point. -/
theorem read4 (c : Dev nD) (A : Buf (Elt Ideal) ((c : Thread nD τ).loc main_v16)) (t : Fin cfg0.N) (p : Fin 1) (j : Fin 256) :
    (((cfg0.win 4).blk t).view.read (Elt Ideal) A : Vec Ideal S1x256 .f32) (ix2 p j) = (A : S1x256.Idx → EReal) (ix2 p j) := by
  obtain ⟨e0, e1⟩ := idx4 t
  rw [View.read_apply]
  refine congrArg (A : S1x256.Idx → EReal) (funext fun a => Fin.ext ?_)
  match a with
  | ⟨0, _⟩ => show win0_4.index t (0 : Fin 2) * 1 + 1 * p.val = p.val; rw [e0]; omega
  | ⟨1, _⟩ => show win0_4.index t (1 : Fin 2) * 256 + 1 * j.val = j.val; rw [e1]; omega

theorem blk4_apply (c : Dev nD) (t : Fin cfg0.N) (p : Fin 1) (j : Fin 256) :
    (iblk m c 4 t : Vec Ideal S1x256 .f32) (ix2 p j) = (V m c main_v16 : S1x256.Idx → EReal) (ix2 p j) := by
  unfold iblk
  exact read4 c _ t p j

/-- The second-layer weights are held whole at every point. -/
theorem read5 (c : Dev nD) (A : Buf (Elt Ideal) ((c : Thread nD τ).loc main_arg7)) (t : Fin cfg0.N) (p : Fin 256) (j : Fin 64) :
    (((cfg0.win 5).blk t).view.read (Elt Ideal) A : Vec Ideal S256x64 .f32) (ix2 p j) = (A : S256x64.Idx → EReal) (ix2 p j) := by
  obtain ⟨e0, e1⟩ := idx5 t
  rw [View.read_apply]
  refine congrArg (A : S256x64.Idx → EReal) (funext fun a => Fin.ext ?_)
  match a with
  | ⟨0, _⟩ => show win0_5.index t (0 : Fin 2) * 256 + 1 * p.val = p.val; rw [e0]; omega
  | ⟨1, _⟩ => show win0_5.index t (1 : Fin 2) * 64 + 1 * j.val = j.val; rw [e1]; omega

theorem blk5_apply (c : Dev nD) (t : Fin cfg0.N) (p : Fin 256) (j : Fin 64) :
    (iblk m c 5 t : Vec Ideal S256x64 .f32) (ix2 p j) = (V m c main_arg7 : S256x64.Idx → EReal) (ix2 p j) := by
  unfold iblk
  exact read5 c _ t p j

/-- The second bias row is held whole at every point. -/
theorem read6 (c : Dev nD) (A : Buf (Elt Ideal) ((c : Thread nD τ).loc main_v17)) (t : Fin cfg0.N) (p : Fin 1) (j : Fin 64) :
    (((cfg0.win 6).blk t).view.read (Elt Ideal) A : Vec Ideal S1x64 .f32) (ix2 p j) = (A : S1x64.Idx → EReal) (ix2 p j) := by
  obtain ⟨e0, e1⟩ := idx6 t
  rw [View.read_apply]
  refine congrArg (A : S1x64.Idx → EReal) (funext fun a => Fin.ext ?_)
  match a with
  | ⟨0, _⟩ => show win0_6.index t (0 : Fin 2) * 1 + 1 * p.val = p.val; rw [e0]; omega
  | ⟨1, _⟩ => show win0_6.index t (1 : Fin 2) * 64 + 1 * j.val = j.val; rw [e1]; omega

theorem blk6_apply (c : Dev nD) (t : Fin cfg0.N) (p : Fin 1) (j : Fin 64) :
    (iblk m c 6 t : Vec Ideal S1x64 .f32) (ix2 p j) = (V m c main_v17 : S1x64.Idx → EReal) (ix2 p j) := by
  unfold iblk
  exact read6 c _ t p j
/-! ## What a point writes back -/

/-- The perceptron's result over the arrays as the region finds them and the arguments as launched. -/
abbrev target (c : Dev nD) : S100000x64.Idx → EReal :=
  Cert.Mlp.result (V m c main_arg0) (V m c main_v13) (m ((c : Thread nD τ).loc main_arg5)) (m ((c : Thread nD τ).loc main_arg6))
    (V m c main_arg7) (m ((c : Thread nD τ).loc main_arg8))

/-- WHAT POINT `t` WRITES BACK is block `t` of the perceptron's result. -/
theorem flushed_eq (c : Dev nD) (t : Fin cfg0.N) :
    (dats m 0 c).flushed 7 t = ((cfg0.win 7).blk t).view.read (Elt Ideal) (target m c) := by
  rw [flushed7]
  unfold out0_7
  rw [View.canon_unit_zero hz]
  simp only [View.ld_unit_zero (S := S5000x64) hz, View.ld_unit_zero (S := S5000x48) hz, View.ld_unit_zero (S := S64x256) hz,
    View.ld_unit_zero (S := S48x256) hz, View.ld_unit_zero (S := S1x256) hz, View.ld_unit_zero (S := S256x64) hz,
    View.ld_unit_zero (S := S1x64) hz]
  obtain ⟨e0, e1⟩ := idx7 t
  funext y
  have hr : ((((cfg0.win 7).blk t).view.emb y) 0).val = 5000 * t.val + (y 0).val := by
    show win0_7.index t (0 : Fin 2) * 5000 + 1 * (y 0).val = _; rw [e0]; omega
  have hc : ((((cfg0.win 7).blk t).view.emb y) 1) = y 1 := Fin.ext (by
    show win0_7.index t (1 : Fin 2) * 64 + 1 * (y 1).val = _; rw [e1]; omega)
  show k0_pay1 (iblk m c 0 t) (iblk m c 1 t) (iblk m c 2 t) (iblk m c 3 t) (iblk m c 4 t) (iblk m c 5 t) (iblk m c 6 t) y
      = Cert.Mlp.entry (V m c main_arg0) (V m c main_v13) (m ((c : Thread nD τ).loc main_arg5)) (m ((c : Thread nD τ).loc main_arg6))
          (V m c main_arg7) (m ((c : Thread nD τ).loc main_arg8))
          ((((cfg0.win 7).blk t).view.emb y) 0) ((((cfg0.win 7).blk t).view.emb y) 1)
  rw [hc]
  refine (congrArg (k0_pay1 (iblk m c 0 t) (iblk m c 1 t) (iblk m c 2 t) (iblk m c 3 t) (iblk m c 4 t) (iblk m c 5 t) (iblk m c 6 t)) (eq_ix2 y)).trans ?_
  refine Cert.KernelIdeal.Body.block_entry _ _ _ _ _ _ _ _ _ _ _ _ _ (y 0) (y 1) ((((cfg0.win 7).blk t).view.emb y) 0) (y 1)
    (fun j => ?_) (fun j => ?_) (fun j k => ?_) (fun j k => ?_) (fun k => ?_) (fun k => ?_) ?_
  · exact blk0_apply m c t (y 0) j _ hr
  · exact blk1_apply m c t (y 0) j _ hr
  · exact (blk2_apply m c t j k).trans (Cert.KernelIdeal.Host.V_w1a_apply m c j k)
  · exact (blk3_apply m c t j k).trans (Cert.KernelIdeal.Host.V_w1b_apply m c j k)
  · exact (blk4_apply m c t 0 k).trans (Cert.KernelIdeal.Host.V_b1_apply m c k)
  · exact blk5_apply m c t k (y 1)
  · exact (blk6_apply m c t 0 (y 1)).trans (Cert.KernelIdeal.Host.V_b2_apply m c (y 1))

/-! ## The blocks tile the array -/

/-- An index is in point `t`'s block of the result iff each coordinate is in the block's range on its axis. -/
theorem mem_blk (t : Fin cfg0.N) (i : S100000x64.Idx) :
    i ∈ ((cfg0.win 7).blk t).view.set ↔ ∀ a : Fin 2, win0_7.index t a * S5000x64.size a ≤ (i a).val ∧ (i a).val < win0_7.index t a * S5000x64.size a + S5000x64.size a := by
  show i ∈ ((View.whole main_v18).slice (win0_7.rect t)).set ↔ _
  rw [View.set_slice_whole, Rect.mem_set_unit]
  exact Iff.rfl

/-- Every index of the result lies in some point's block: row `r` in the block of point `r / 5000`. -/
theorem cover (i : S100000x64.Idx) : ∃ t : Fin cfg0.N, (cfg0.win 7).flush t = true ∧ i ∈ ((cfg0.win 7).blk t).view.set := by
  have hi0 : (i 0).val < 100000 := (i 0).isLt
  have hi1 : (i 1).val < 64 := (i 1).isLt
  have hN : cfg0.N = 20 := N_0
  have ht : (i 0).val / 5000 < cfg0.N := by rw [hN]; omega
  refine ⟨⟨(i 0).val / 5000, ht⟩, flush0_7 _, ?_⟩
  rw [mem_blk]
  obtain ⟨e0, e1⟩ := idx7 ⟨(i 0).val / 5000, ht⟩
  intro a
  match a with
  | ⟨0, _⟩ =>
    show win0_7.index ⟨(i 0).val / 5000, ht⟩ (0 : Fin 2) * 5000 ≤ (i 0).val ∧ (i 0).val < win0_7.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win0_7.index ⟨(i 0).val / 5000, ht⟩ (1 : Fin 2) * 64 ≤ (i 1).val ∧ (i 1).val < win0_7.index ⟨(i 0).val / 5000, ht⟩ (1 : Fin 2) * 64 + 64
    rw [e1]; omega

/-! ## The result array after the run -/

/-- THE RESULT ARRAY ends holding the perceptron's result of the arguments as launched, the edge features aggregated
    by the host's scatter-mean. -/
theorem final (c : Dev nD) :
    (dats m 0 c).arrAt 7 cfg0.N
      = Cert.Mlp.result (m ((c : Thread nD τ).loc main_arg0))
          (Cert.KernelIdeal.Host.aggregate (m ((c : Thread nD τ).loc main_arg1)) (m ((c : Thread nD τ).loc main_arg2)))
          (m ((c : Thread nD τ).loc main_arg5)) (m ((c : Thread nD τ).loc main_arg6))
          (m ((c : Thread nD τ).loc main_arg7)) (m ((c : Thread nD τ).loc main_arg8)) := by
  have h := (dats m 0 c).arrAt_eq_of_cover 7 (target m c) (fun t _ => flushed_eq m c t) cover
  rw [h]
  unfold target
  rw [V_main_arg0, V_main_arg7, Cert.KernelIdeal.Host.V_agg]

/-- The run, read: the result array at the perceptron's result, the arguments unchanged. -/
theorem run : θ_run defs (onTc (τ := τ) (main (F := Ideal))) ⟨m, fun _ => 0, ρ⟩ fun r => ∀ c : Dev nD,
      r.2.mem ((c : Thread nD τ).loc main_v18)
        = Cert.Mlp.result (m ((c : Thread nD τ).loc main_arg0))
            (Cert.KernelIdeal.Host.aggregate (m ((c : Thread nD τ).loc main_arg1)) (m ((c : Thread nD τ).loc main_arg2)))
            (m ((c : Thread nD τ).loc main_arg5)) (m ((c : Thread nD τ).loc main_arg6))
            (m ((c : Thread nD τ).loc main_arg7)) (m ((c : Thread nD τ).loc main_arg8))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (Cert.KernelIdeal.Value.run_blocks m ρ)

end Cert.KernelIdeal.Array

end
-- ==== Proof.Reference.lean ====
/-
  The reference's result, read at an index, is the perceptron's result (Spec) of the arguments, the edge features
  aggregated by the reference's own scatter-mean.

  The reference concatenates each node's 64 features with its 48 aggregated edge features into a row of 112, multiplies
  by the whole first-layer matrix, adds the first bias, rectifies, multiplies by the second-layer matrix and adds the
  second bias. Read at (r, c): the second product is a sum over the 256 hidden units; each hidden unit's
  pre-activation is a 112-term dot product of the concatenated row with a column of the first-layer matrix, which
  splits after its first 64 terms into the node-feature part and the edge-feature part (Spec's `concat_dot`).
-/
import proofs.«130311_j5428838662513_1_alg».proof.Proof.Gen.ReferenceIdeal.Read
import proofs.«130311_j5428838662513_1_alg».proof.Proof.Spec
import Idealize.ShloMosaic.Lib.Pipeline.Value
import Idealize.ShloMosaic.Lib.ValueIdx
import Idealize.ShloMosaic.PureOps.Ideal.Laws

noncomputable section

namespace Cert.ReferenceIdeal.Hand

open Cert.ReferenceIdeal Cert.ReferenceIdeal.Gen Cert.ReferenceIdeal.Read Idealize.ShloMosaic Idealize.ShloMosaic.ValueIdx

/-- The concatenated row at one of its first 64 positions is the node feature there. -/
theorem concat_left (x0 : (⟨S100000x64, .f32⟩ : BufTy).Contents (Elt Ideal)) (x1 : (⟨S2x1600000, .i32⟩ : BufTy).Contents (Elt Ideal))
    (x2 : (⟨S1600000x48, .f32⟩ : BufTy).Contents (Elt Ideal)) (r : Fin 100000) (j : Fin 64) :
    val_main_v14 (F := Ideal) x0 x1 x2 (ix2 r (Cert.Mlp.top j)) = x0 (ix2 r j) := by
  unfold val_main_v14
  exact concatenate_pair_apply_left 1 x0 (val_main_v13 (F := Ideal) x1 x2) concatenates_S100000x64_S100000x48_S100000x112_d1
    (ix2 r (Cert.Mlp.top j)) rfl (ix2 r j) (fun b => by
      match b with
      | ⟨0, _⟩ => rfl
      | ⟨1, _⟩ => rfl)

/-- The concatenated row at one of its last 48 positions is the aggregated edge feature there. -/
theorem concat_right (x0 : (⟨S100000x64, .f32⟩ : BufTy).Contents (Elt Ideal)) (x1 : (⟨S2x1600000, .i32⟩ : BufTy).Contents (Elt Ideal))
    (x2 : (⟨S1600000x48, .f32⟩ : BufTy).Contents (Elt Ideal)) (r : Fin 100000) (j : Fin 48) :
    val_main_v14 (F := Ideal) x0 x1 x2 (ix2 r (Cert.Mlp.bot j)) = val_main_v13 (F := Ideal) x1 x2 (ix2 r j) := by
  unfold val_main_v14
  exact concatenate_pair_apply_right 1 x0 (val_main_v13 (F := Ideal) x1 x2) concatenates_S100000x64_S100000x48_S100000x112_d1
    (ix2 r (Cert.Mlp.bot j)) rfl rfl (ix2 r j) (fun b hb => by
      match b, hb with
      | ⟨0, _⟩, _ => rfl
      | ⟨1, _⟩, hb => exact absurd rfl hb) (by show j.val + 64 = 64 + j.val; omega)

/-- The rectified first layer at (r, k) is hidden unit `k` of row `r`. -/
theorem hidden_eq (x0 : (⟨S100000x64, .f32⟩ : BufTy).Contents (Elt Ideal)) (x1 : (⟨S2x1600000, .i32⟩ : BufTy).Contents (Elt Ideal))
    (x2 : (⟨S1600000x48, .f32⟩ : BufTy).Contents (Elt Ideal)) (x5 : (⟨S112x256, .f32⟩ : BufTy).Contents (Elt Ideal))
    (x6 : (⟨S256, .f32⟩ : BufTy).Contents (Elt Ideal)) (r : Fin 100000) (k : Fin 256) :
    val_main_v19 (F := Ideal) x0 x1 x2 x5 x6 (ix2 r k)
      = Cert.Mlp.hidden (fun j => x0 (ix2 r j)) (fun j => val_main_v13 (F := Ideal) x1 x2 (ix2 r j))
          (fun j => x5 (ix2 (Cert.Mlp.top j) k)) (fun j => x5 (ix2 (Cert.Mlp.bot j) k)) (x6 (ix1 k)) := by
  have el : ∀ j : Fin 112, lidx_main_v15 (ix2 r k) j = ix2 r j := fun j => funext fun a => Fin.ext (by
    match a with
    | ⟨0, _⟩ => rfl
    | ⟨1, _⟩ => rfl)
  have er : ∀ j : Fin 112, ridx_main_v15 (ix2 r k) j = ix2 j k := fun j => funext fun a => Fin.ext (by
    match a with
    | ⟨0, _⟩ => rfl
    | ⟨1, _⟩ => rfl)
  have eb : idx_main_v16 (idx_main_v17 (ix2 r k)) = ix1 k := funext fun a => Fin.ext (by
    match a with
    | ⟨0, _⟩ => rfl)
  rw [val_main_v19_apply, val_main_v18_apply, val_main_v15_apply, val_main_v17_apply, val_main_v16_apply,
    val_main_call0_v0_apply, val_main_call0_cst_apply]
  simp only [el, er, eb]
  show max ((∑ j : Fin 112, val_main_v14 (F := Ideal) x0 x1 x2 (ix2 r j) * x5 (ix2 j k)) + x6 (ix1 k)) (Ideal.ofBits .f32 0x00000000#32) = _
  rw [Ideal.ofBits_zero_f32]
  have hd := Cert.Mlp.concat_dot (fun j => x0 (ix2 r j)) (fun j => val_main_v13 (F := Ideal) x1 x2 (ix2 r j))
    (fun j => x5 (ix2 (Cert.Mlp.top j) k)) (fun j => x5 (ix2 (Cert.Mlp.bot j) k))
    (fun j => val_main_v14 (F := Ideal) x0 x1 x2 (ix2 r j)) (fun j => x5 (ix2 j k))
    (fun j => concat_left x0 x1 x2 r j) (fun j => concat_right x0 x1 x2 r j) (fun _ => rfl) (fun _ => rfl)
  exact congrArg (fun s => max (s + x6 (ix1 k)) 0) hd

/-- THE REFERENCE'S RESULT is the perceptron's result of its arguments and its own aggregated edge features. -/
theorem result_eq (x0 : (⟨S100000x64, .f32⟩ : BufTy).Contents (Elt Ideal)) (x1 : (⟨S2x1600000, .i32⟩ : BufTy).Contents (Elt Ideal))
    (x2 : (⟨S1600000x48, .f32⟩ : BufTy).Contents (Elt Ideal)) (x5 : (⟨S112x256, .f32⟩ : BufTy).Contents (Elt Ideal))
    (x6 : (⟨S256, .f32⟩ : BufTy).Contents (Elt Ideal)) (x7 : (⟨S256x64, .f32⟩ : BufTy).Contents (Elt Ideal))
    (x8 : (⟨S64, .f32⟩ : BufTy).Contents (Elt Ideal)) :
    val_main_v23 (F := Ideal) x0 x1 x2 x5 x6 x7 x8
      = Cert.Mlp.result x0 (val_main_v13 (F := Ideal) x1 x2) x5 x6 x7 x8 := by
  funext i
  obtain ⟨r, c, rfl⟩ : ∃ (r : Fin 100000) (c : Fin 64), i = ix2 r c := ⟨i 0, i 1, eq_ix2 i⟩
  have el : ∀ k : Fin 256, lidx_main_v20 (ix2 r c) k = ix2 r k := fun k => funext fun a => Fin.ext (by
    match a with
    | ⟨0, _⟩ => rfl
    | ⟨1, _⟩ => rfl)
  have er : ∀ k : Fin 256, ridx_main_v20 (ix2 r c) k = ix2 k c := fun k => funext fun a => Fin.ext (by
    match a with
    | ⟨0, _⟩ => rfl
    | ⟨1, _⟩ => rfl)
  have eb : idx_main_v21 (idx_main_v22 (ix2 r c)) = ix1 c := funext fun a => Fin.ext (by
    match a with
    | ⟨0, _⟩ => rfl)
  rw [val_main_v23_apply, val_main_v20_apply, val_main_v22_apply, val_main_v21_apply]
  simp only [el, er, eb]
  show (∑ k : Fin 256, val_main_v19 (F := Ideal) x0 x1 x2 x5 x6 (ix2 r k) * x7 (ix2 k c)) + x8 (ix1 c)
      = Cert.Mlp.entry x0 (val_main_v13 (F := Ideal) x1 x2) x5 x6 x7 x8 r c
  unfold Cert.Mlp.entry Cert.Mlp.out
  refine congrArg (· + x8 (ix1 c)) (Finset.sum_congr rfl fun k _ => ?_)
  exact congrArg (· * x7 (ix2 k c)) (hidden_eq x0 x1 x2 x5 x6 r k)

end Cert.ReferenceIdeal.Hand

end
-- ==== Proof.lean ====
/-
  A node update of a graph network: each of 100000 nodes takes the mean of the 48 edge features of the edges leaving it
  (a scatter-mean over 1600000 edges, a node with no edge dividing by one), joins it to its own 64 features, and passes
  the 112 numbers through a two-layer perceptron (256 rectified hidden units, 64 outputs).

  Both programs compute the scatter-mean with the same host operations. The kernel then walks the nodes in 20 blocks
  of 5000 rows and, never forming the joined row, multiplies the node features by the first 64 rows of the first-layer
  matrix and the edge means by its last 48 rows and adds the two products; the reference joins the rows and multiplies
  by the whole matrix. On the extended reals the kernel's roundings to the narrow format are the identity, every
  matrix product is a plain sum of products, and the two first layers differ only in how a sum of 112 terms is grouped
  — 64 terms plus 48 terms against all 112 at once — which addition's commutativity and associativity settle with no
  appeal to finiteness. So the two results are one function of the arguments, entry by entry (Spec: `Cert.Mlp.result`).

  The modules: Spec (the perceptron's output unit, the regrouping law, the result array), KernelBody (the stored block
  at an entry), KernelHost (what the host leaves in the staged arrays), KernelArray (from the 20 written-back blocks to
  the whole array, and the kernel's run), Reference (the reference's result at an entry), and here the scatter-means'
  identity and the five claims. The idealized kernel is the kernel as printed, read on the extended reals with no
  rewrite applied, so nothing is owed for its idealization.
-/
import proofs.«130311_j5428838662513_1_alg».proof.Defs
import proofs.«130311_j5428838662513_1_alg».proof.Proof.Gen.Kernel
import proofs.«130311_j5428838662513_1_alg».proof.Proof.Gen.Kernel.Skeleton
import proofs.«130311_j5428838662513_1_alg».proof.Proof.Gen.Kernel.Launch
import proofs.«130311_j5428838662513_1_alg».proof.Proof.Gen.Kernel.Points
import proofs.«130311_j5428838662513_1_alg».proof.Proof.Gen.Kernel.Frame
import proofs.«130311_j5428838662513_1_alg».proof.Proof.Gen.KernelIdeal
import proofs.«130311_j5428838662513_1_alg».proof.Proof.Gen.KernelIdeal.Skeleton
import proofs.«130311_j5428838662513_1_alg».proof.Proof.Gen.KernelIdeal.Launch
import proofs.«130311_j5428838662513_1_alg».proof.Proof.Gen.KernelIdeal.Points
import proofs.«130311_j5428838662513_1_alg».proof.Proof.Gen.KernelIdeal.Frame
import proofs.«130311_j5428838662513_1_alg».proof.Proof.Gen.ReferenceIdeal
import proofs.«130311_j5428838662513_1_alg».proof.Proof.Gen.Pre_finite_inputs
import proofs.«130311_j5428838662513_1_alg».proof.Proof.Gen.KernelIdeal.Value
import proofs.«130311_j5428838662513_1_alg».proof.Proof.Gen.ReferenceIdeal.Run
import proofs.«130311_j5428838662513_1_alg».proof.Proof.Gen.ReferenceIdeal.Read
import proofs.«130311_j5428838662513_1_alg».proof.Proof.KernelArray
import proofs.«130311_j5428838662513_1_alg».proof.Proof.Reference
import Idealize.ShloMosaic.Adequacy
import Idealize.ShloMosaic.Init

noncomputable section

namespace Cert.Proof

open Idealize.ShloMosaic Idealize.ShloMosaic.TcCoe Idealize.SL.Sem

/-- The two programs' scatter-means are one function of the edge index and the edge features: the same operations in
    the same order over the same shapes. -/
theorem aggregate_eq (x1 : (⟨Cert.KernelIdeal.S2x1600000, .i32⟩ : BufTy).Contents (Elt Ideal))
    (x2 : (⟨Cert.KernelIdeal.S1600000x48, .f32⟩ : BufTy).Contents (Elt Ideal)) :
    Cert.KernelIdeal.Host.aggregate x1 x2 = Cert.ReferenceIdeal.Read.val_main_v13 (F := Ideal) x1 x2 := rfl

/-- The kernel as printed terminates without a fault and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No rewrite was applied in idealizing the kernel, so there is nothing to preserve. -/
theorem preserves : Cert.preserves_Kernel_KernelIdeal := trivial

/-- On the extended reals, from memories that agree on the arguments, both programs end with the perceptron's result
    of the arguments and the scatter-mean of the edge features: the kernel by its 20 written-back blocks, the
    reference by its composed term read at an entry. -/
theorem algebraic : Cert.algebraic_KernelIdeal_ReferenceIdeal := by
  intro m ρ m' ρ' _ hagree
  refine ⟨_, Cert.KernelIdeal.Array.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, -, -, a5, a6, a7, a8⟩ := hagree c
  rw [Cert.ReferenceIdeal.Read.val_main_v23_eq, Cert.ReferenceIdeal.Hand.result_eq, a0, a1, a2, a5, a6, a7, a8, aggregate_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
